-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : FVec F S100000x128 .f32) (main_arg2 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  main_v13
-- ==== Kernel.lean ====
abbrev S100000x128 : Shape := ⟨2, ![100000, 128]⟩
abbrev S10x1x128 : Shape := ⟨3, ![10, 1, 128]⟩
abbrev S10000x128 : Shape := ⟨2, ![10000, 128]⟩
abbrev S1x1x128 : Shape := ⟨3, ![1, 1, 128]⟩
abbrev S10000 : Shape := ⟨1, ![10000]⟩
abbrev S10000x1 : Shape := ⟨2, ![10000, 1]⟩
abbrev S1x10000x1 : Shape := ⟨3, ![1, 10000, 1]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S10x1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S1x1x128, .f32⟩
  | .local _ .vmem, ⟨7, _⟩ => ⟨S1x1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  iota_S10000x1_d0_w32 : S10000x1.Iotas .tc 32 [0]
  shapeCasts_S10000x1_S1x10000x1 : S10000x1.ShapeCasts S1x10000x1
  reduces_S1x10000x1_S1 : S1x10000x1.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  inb_S1x1x128_S1x1x128_0_0_0 : ∀ a, (![0, 0, 0] : Fin 3 → Nat) a + S1x1x128.size a ≤ S1x1x128.size a
  h_S1x1x128 : 0 < S1x1x128.numel
  reducesTo_S10x1x128_S_d0_1_2 : S10x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S10x1x128.size a
  hwx0_3 : ∀ i : grid0.Coords, EltTy.bits .f32 = 32 ∨ (Rect.block (s := S10x1x128) S1x1x128.size (cc0_transform_3 i) (hinb0_3 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S_ : Shape := ⟨0, ![]⟩
abbrev S100000 : Shape := ⟨1, ![100000]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S_, .f32⟩
  | .hbm, ⟨5, _⟩ => ⟨S100000, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S100000, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .f32⟩
  | .hbm, ⟨22, _⟩ => ⟨S100000, .f32⟩
  | .hbm, ⟨23, _⟩ => ⟨S100000x128, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_v11 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S_S100000 : S_.BroadcastsInDim S100000 (![] : Fin 0 → Fin S100000.rank)
  reducesTo_S100000_S_d0 : S100000.ReducesTo [0] S_

variable [Facts₀]

class Facts : Prop extends Facts₀ where

variable [Facts]
-- ==== Proof.RatioAlgebra.lean ====
/-
  The mathematics of the row-wise contrastive ratio, free of either program.

  For three arrays X, P, N of 100000 rows and 128 columns, a row r has five row sums: the dot products
  X·P and X·N and the squared lengths X·X, P·P, N·N. One side's similarity is exp (dot / den / tau), where den is
  the product of the two lengths, and the row's ratio is  sim_pos / (sim_neg + eps).  The loss is minus the logarithm of
  the sum of the ratios over all rows.

  The product of the two lengths can be formed in two ways: as the square root of the product of the squared
  lengths (`rowRatio`), or as the product of the two square roots (`rowRatioRoots`). On the extended reals the two
  agree whenever the squared lengths are nonnegative REAL numbers, which they are when every entry is a real number:
  sqrt (a * b) = sqrt a * sqrt b for 0 <= a, 0 <= b (`sqrt_mul_real`, `rowRatioRoots_eq`). This is the one place
  finiteness is used; everything else below is commutativity and associativity of finite sums.

  Sums over index sets are taken by coordinates (`sum_idx1`, `sum_idx3`), and the 100000 rows are regrouped as
  10 blocks of 10000 consecutive rows (`sum_rows_blocks`): row 10000 * t + p is row p of block t.
-/
import Idealize.ShloMosaic.Lib.ValueIdx
import Idealize.ShloMosaic.PureOps.Ideal.Laws

noncomputable section

open scoped BigOperators

namespace Cert.Contrast

open Idealize.ShloMosaic Idealize.ShloMosaic.ValueIdx

/-! ## Sums over index sets, by coordinates -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over one coordinate range of extent 1 is its one term. -/
theorem sum_fin_one {M : Type*} [AddCommMonoid M] (f : Fin 1 → M) : ∑ u : Fin 1, f u = f 0 :=
  Fin.sum_univ_one f

/-- Row `10000 * t + p` of the whole array: row `p` of block `t`. -/
def rowOf (t : Fin 10) (p : Fin 10000) : Fin 100000 :=
  ⟨10000 * t.val + p.val, by have := t.isLt; have := p.isLt; omega⟩

/-- The 100000 rows are 10 blocks of 10000 consecutive rows: a sum over the rows is the sum over the blocks of the
    sums over each block's rows. -/
theorem sum_rows_blocks {M : Type*} [AddCommMonoid M] (g : Fin 100000 → M) :
    ∑ r, g r = ∑ t : Fin 10, ∑ p : Fin 10000, g (rowOf t p) := by
  rw [← Equiv.sum_comp (finProdFinEquiv (m := 10) (n := 10000)) (g : Fin (10 * 10000) → M), Fintype.sum_prod_type]
  refine Finset.sum_congr rfl fun t _ => Finset.sum_congr rfl fun p _ => congrArg g (Fin.ext ?_)
  show p.val + 10000 * t.val = 10000 * t.val + p.val
  omega

/-! ## Real numbers among the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} [Fintype ι] (f g : ι → ℝ) :
    ∑ k, ((f k : EReal) * (g k : EReal)) = ((∑ k, f k * g k : ℝ) : EReal) := by
  rw [coe_sum]
  exact Finset.sum_congr rfl fun k _ => (EReal.coe_mul _ _).symm

/-- On nonnegative reals the square root of a product is the product of the square roots, also as extended reals. -/
theorem sqrt_mul_real {a b : ℝ} (ha : 0 ≤ a) (hb : 0 ≤ b) :
    Ideal.sqrt ((a : EReal) * (b : EReal)) = Ideal.sqrt (a : EReal) * Ideal.sqrt (b : EReal) := by
  rw [← EReal.coe_mul, Ideal.sqrt_coe, Ideal.sqrt_coe, Ideal.sqrt_coe, if_neg (not_lt.mpr (mul_nonneg ha hb)),
    if_neg (not_lt.mpr ha), if_neg (not_lt.mpr hb), ← EReal.coe_mul, Real.sqrt_mul ha]

/-! ## The specification -/

/-- The arrays: 100000 rows of 128 entries. -/
abbrev Arr : Type := (⟨2, ![100000, 128]⟩ : Shape).Idx → EReal

/-- Every entry is a real number. -/
def IsReal (X : Arr) : Prop := ∀ i, ∃ x : ℝ, X i = (x : EReal)

/-- The dot product of row `r` of `X` with row `r` of `Y`. -/
def rowDot (X Y : Arr) (r : Fin 100000) : EReal := ∑ k : Fin 128, X (ix2 r k) * Y (ix2 r k)

/-- The temperature 0.5 and the guard 1e-8 of the denominator, as the single-precision words both programs carry. -/
abbrev tau : EReal := Ideal.ofBits .f32 0x3F000000#32
abbrev eps : EReal := Ideal.ofBits .f32 0x322BCC77#32

/-- One side's similarity: exp (dot / den / tau). -/
def sim (dot den : EReal) : EReal := Ideal.exp (Ideal.div (Ideal.div dot den) tau)

/-- A row's ratio from its five row sums and the two products of lengths. -/
def ratio (dp dn denp denn : EReal) : EReal := Ideal.div (sim dp denp) (sim dn denn + eps)

/-- Row `r`'s ratio, the product of two lengths formed as the square root of the product of the squared lengths. -/
def rowRatio (X P N : Arr) (r : Fin 100000) : EReal :=
  ratio (rowDot X P r) (rowDot X N r) (Ideal.sqrt (rowDot X X r * rowDot P P r)) (Ideal.sqrt (rowDot X X r * rowDot N N r))

/-- The same with the product of lengths formed as the product of the two square roots. -/
def rowRatioRoots (X P N : Arr) (r : Fin 100000) : EReal :=
  ratio (rowDot X P r) (rowDot X N r) (Ideal.sqrt (rowDot X X r) * Ideal.sqrt (rowDot P P r))
    (Ideal.sqrt (rowDot X X r) * Ideal.sqrt (rowDot N N r))

/-- The loss: minus the logarithm of the sum of the rows' ratios. -/
def loss (X P N : Arr) : EReal := -(Ideal.log (∑ r : Fin 100000, rowRatio X P N r))

/-- A row of reals has a real, nonnegative squared length. -/
theorem rowDot_self_real {X : Arr} (hX : IsReal X) (r : Fin 100000) :
    ∃ a : ℝ, 0 ≤ a ∧ rowDot X X r = (a : EReal) := by
  choose x hx using hX
  refine ⟨∑ k : Fin 128, x (ix2 r k) * x (ix2 r k), Finset.sum_nonneg fun k _ => mul_self_nonneg _, ?_⟩
  unfold rowDot
  simp only [hx]
  exact sum_mul_coe _ _

/-- For rows of reals the two ways of forming the product of two lengths agree. -/
theorem sqrt_rowDot_mul {X Y : Arr} (hX : IsReal X) (hY : IsReal Y) (r : Fin 100000) :
    Ideal.sqrt (rowDot X X r) * Ideal.sqrt (rowDot Y Y r) = Ideal.sqrt (rowDot X X r * rowDot Y Y r) := by
  obtain ⟨a, ha, ea⟩ := rowDot_self_real hX r
  obtain ⟨b, hb, eb⟩ := rowDot_self_real hY r
  rw [ea, eb, sqrt_mul_real ha hb]

/-- So for arrays of reals a row's ratio does not depend on which way its products of lengths are formed. -/
theorem rowRatioRoots_eq {X P N : Arr} (hX : IsReal X) (hP : IsReal P) (hN : IsReal N) (r : Fin 100000) :
    rowRatioRoots X P N r = rowRatio X P N r := by
  unfold rowRatioRoots rowRatio
  rw [sqrt_rowDot_mul hX hP r, sqrt_rowDot_mul hX hN r]

end Cert.Contrast

end
-- ==== Proof.RefLoss.lean ====
/-
  The reference computes the loss.

  Its result is minus the logarithm of the sum, over the 100000 row indices, of one value per row. Read one
  operation at a time, the value at row `r` is exp (dot / (len * len') / tau) for the positive pair, divided by the
  same for the negative pair plus eps — each dot product and each squared length a sum over the row's 128 entries,
  each length the square root of its squared length: the row's ratio with the product of two lengths formed as the
  product of the two square roots (`row_stage`). For arrays of real numbers that is the row's ratio as the loss forms it,
  so the reference's result is the loss (`result_eq_loss`).
-/
import proofs.«133239_j26371099197446_2_alg».proof.Proof.Gen.ReferenceIdeal.Read
import proofs.«133239_j26371099197446_2_alg».proof.Proof.RatioAlgebra

noncomputable section

open scoped BigOperators

namespace Cert.Contrast.Ref

open Idealize.ShloMosaic Idealize.ShloMosaic.ValueIdx Cert.ReferenceIdeal Cert.ReferenceIdeal.Gen Cert.ReferenceIdeal.Read
open Cert.Contrast

/-- Entry `k` of row `r`, as each of the six row sums names it. -/
theorem idx_v1 (r : Fin 100000) (k : Fin 128) : idx_main_v1 (ix1 r) k = ix2 r k :=
  funext fun a => Fin.ext (by match a with | ⟨0, _⟩ => rfl | ⟨1, _⟩ => rfl)
theorem idx_v10 (r : Fin 100000) (k : Fin 128) : idx_main_v10 (ix1 r) k = ix2 r k :=
  funext fun a => Fin.ext (by match a with | ⟨0, _⟩ => rfl | ⟨1, _⟩ => rfl)
theorem idx_call0 (r : Fin 100000) (k : Fin 128) : idx_main_call0_v1 (ix1 r) k = ix2 r k :=
  funext fun a => Fin.ext (by match a with | ⟨0, _⟩ => rfl | ⟨1, _⟩ => rfl)
theorem idx_call1 (r : Fin 100000) (k : Fin 128) : idx_main_call1_v1 (ix1 r) k = ix2 r k :=
  funext fun a => Fin.ext (by match a with | ⟨0, _⟩ => rfl | ⟨1, _⟩ => rfl)
theorem idx_call2 (r : Fin 100000) (k : Fin 128) : idx_main_call2_v1 (ix1 r) k = ix2 r k :=
  funext fun a => Fin.ext (by match a with | ⟨0, _⟩ => rfl | ⟨1, _⟩ => rfl)
theorem idx_call3 (r : Fin 100000) (k : Fin 128) : idx_main_call3_v1 (ix1 r) k = ix2 r k :=
  funext fun a => Fin.ext (by match a with | ⟨0, _⟩ => rfl | ⟨1, _⟩ => rfl)

/-- The summed stage at row `r` is the row's ratio, its products of lengths formed as products of square roots. -/
theorem row_stage (X P N : Arr) (r : Fin 100000) :
    val_main_v20 (F := Ideal) X P N (ix1 r) = rowRatioRoots X P N r := by
  simp only [val_main_v20_apply, val_main_v8_apply, val_main_v7_apply, val_main_v5_apply, val_main_v1_apply,
    val_main_v4_apply, val_main_v2_apply, val_main_v3_apply, val_main_call0_v1_apply, val_main_call1_v1_apply,
    val_main_v6_apply, val_main_cst_0_apply, val_main_v19_apply, val_main_v17_apply, val_main_v16_apply,
    val_main_v14_apply, val_main_v10_apply, val_main_v13_apply, val_main_v11_apply, val_main_v12_apply,
    val_main_call2_v1_apply, val_main_call3_v1_apply, val_main_v15_apply, val_main_cst_2_apply, val_main_v18_apply,
    val_main_cst_3_apply, val_main_cst_apply, val_main_cst_1_apply, val_main_call0_cst_apply, val_main_call1_cst_apply,
    val_main_call2_cst_apply, val_main_call3_cst_apply, val_main_v0_apply, val_main_v9_apply, val_main_call0_v0_apply,
    val_main_call1_v0_apply, val_main_call2_v0_apply, val_main_call3_v0_apply,
    idx_v1, idx_v10, idx_call0, idx_call1, idx_call2, idx_call3,
    Ideal.mulf_def, Ideal.addf_def, Ideal.hostDivf_def, Ideal.hostUnary_sqrt_def, Ideal.hostUnary_exp_def,
    Ideal.ofBits_def, Ideal.ofBits_zero_f32, zero_add]
  rfl

/-- The reference's result, for arrays of real numbers, is the loss. -/
theorem result_eq_loss (X P N : Arr) (hX : IsReal X) (hP : IsReal P) (hN : IsReal N) :
    val_main_v23 (F := Ideal) X P N = fun _ => loss X P N := by
  funext i
  rw [val_main_v23_apply, val_main_v22_apply, val_main_v21_apply, val_main_cst_4_apply]
  refine Eq.trans ?_ (rfl : -(Ideal.log (∑ r : Fin 100000, rowRatio X P N r)) = loss X P N)
  simp only [Ideal.hostNegf_def, Ideal.negf_def, Ideal.hostUnary_log_def, Ideal.ofBits_def, Ideal.ofBits_zero_f32, zero_add]
  refine congrArg (fun s => -(Ideal.log s)) ?_
  refine (sum_idx1 (n := 100000) _).trans ?_
  exact Finset.sum_congr rfl fun r _ => (row_stage X P N r).trans (rowRatioRoots_eq hX hP hN r)

end Cert.Contrast.Ref

end
-- ==== Proof.FiniteEntries.lean ====
/-
  From the precondition to "every entry is a real number".

  The precondition says that three one-bit words are all 1: for each of the three arrays, the conjunction over all of
  its entries of |x| < +inf, the bound being the single-precision pattern of +infinity. A conjunction that is 1 had a 1
  at every entry; and an extended real whose absolute value max x (-x) is below the top element is neither the top
  nor the bottom element, so it is a real number (`real_of_abs_lt`).
-/
import proofs.«133239_j26371099197446_2_alg».proof.Pre_finite_inputs
import proofs.«133239_j26371099197446_2_alg».proof.Proof.Gen.Pre_finite_inputs
import proofs.«133239_j26371099197446_2_alg».proof.Proof.RatioAlgebra
import Idealize.ShloMosaic.Lib.ReduceAll
import Idealize.ShloMosaic.Lib.Pipeline.Value

noncomputable section

namespace Cert.Contrast.Finite

open Idealize.ShloMosaic Idealize.ShloMosaic.ValueIdx Cert.Contrast

/-- The scalar shape has one index. -/
instance : Subsingleton Cert.Pre_finite_inputs.S_.Idx := ⟨fun _ _ => funext fun d => d.elim0⟩

/-- The single-precision pattern of +infinity is the top element. -/
theorem inf_word : Ideal.ofBits .f32 0x7F800000#32 = (⊤ : EReal) := by simp [Ideal.ofBits, Ideal.ieee]

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | top => simp at hlt
  | coe r => exact ⟨r, rfl⟩

variable [Cert.Pre_finite_inputs.Facts]

/-- One array's comparison word at an entry says the entry is a real number. -/
theorem entry_real (x : Arr) (i : Cert.Pre_finite_inputs.S100000x128.Idx)
    (h : (cmpf .olt (Host.absf (F := Ideal) x) (broadcastInDim Cert.Pre_finite_inputs.S100000x128 ![]
      Cert.Pre_finite_inputs.Facts.bcast_S_S100000x128 (constant (F := Ideal) Cert.Pre_finite_inputs.S_ .f32 0x7F800000#32))) i = 1#1) :
    ∃ r : ℝ, x i = (r : EReal) := by
  have hb : (broadcastInDim Cert.Pre_finite_inputs.S100000x128 ![] Cert.Pre_finite_inputs.Facts.bcast_S_S100000x128
      (constant (F := Ideal) Cert.Pre_finite_inputs.S_ .f32 0x7F800000#32)) i = Ideal.ofBits .f32 0x7F800000#32 :=
    broadcastInDim_apply _ _ _ i (fun a => a.elim0) (fun a => a.elim0)
  have h' : Ideal.cmp .olt (max (x i) (-(x i))) ((broadcastInDim Cert.Pre_finite_inputs.S100000x128 ![]
      Cert.Pre_finite_inputs.Facts.bcast_S_S100000x128 (constant (F := Ideal) Cert.Pre_finite_inputs.S_ .f32 0x7F800000#32)) i) = 1#1 := h
  rw [hb] at h'
  exact real_of_abs_lt _ h'

/-- Under the precondition every entry of each of the three arrays is a real number. -/
theorem isReal_of_pre (x0 x1 x2 : Arr)
    (h : Cert.Pre_finite_inputs.fn (F := Ideal) x0 x1 x2 = fun _ => 1#1) : IsReal x0 ∧ IsReal x1 ∧ IsReal x2 := by
  have h' := congrFun h ix0
  unfold Cert.Pre_finite_inputs.fn at h'
  dsimp only at h'
  change IntOp.andi (IntOp.andi _ _) _ = 1#1 at h'
  rw [IntOp.andi_eq_one, IntOp.andi_eq_one] at h'
  obtain ⟨⟨h0, h1⟩, h2⟩ := h'
  exact ⟨fun i => entry_real x0 i (Host.reduce_andi_all _ _ _ _ ix0 h0 i),
    fun i => entry_real x1 i (Host.reduce_andi_all _ _ _ _ ix0 h1 i),
    fun i => entry_real x2 i (Host.reduce_andi_all _ _ _ _ ix0 h2 i)⟩

end Cert.Contrast.Finite

end
-- ==== Proof.BlockPayload.lean ====
/-
  What one grid point stores, as a function of its three input blocks, on the extended reals.

  A point holds one block of each array: 10000 consecutive rows of 128 entries. The body takes five lane sums per
  row (the dot products x0·x1 and x0·x2 and the squared lengths of the three rows), each kept as a [10000, 1]
  column (`colsum`, `colsum_mulf`); forms each row's ratio exp (dot / sqrt (sq * sq') / tau) / (exp (…) + eps)
  pointwise on those columns; masks the rows whose global number, 10000 * (the point) + (the row), is not below
  100000 — none, since the grid has 10 points (`mask_word`, `mask_one`); so that the [1, 10000, 1] value it
  reduces holds row `p`'s ratio at (0, p, 0) (`pay2_apply`). It then sums ALL of that value (a reduction over both
  non-unit axes into a shape of one element, `block_total`) and stores the sum in lane 0 of a [1, 1, 128] tile whose
  other lanes are zero (`lane_word`, `pay1_apply`, `stored_apply`).
-/
import proofs.«133239_j26371099197446_2_alg».proof.Proof.Gen.KernelIdeal.Skeleton
import proofs.«133239_j26371099197446_2_alg».proof.Proof.RatioAlgebra
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Contrast.Block

open Idealize.ShloMosaic Idealize.ShloMosaic.ValueIdx Cert.KernelIdeal Cert.KernelIdeal.Gen Cert.Contrast

/-! ## Words: the row mask and the lane test -/

/-- Block `t` (of 10), row `p` (of 10000): the global row number `t * 10000 + p` is below 100000, as signed
    32-bit words (nothing wraps: the number is below 2 ^ 31). -/
theorem mask_word (t p : Nat) (ht : t < 10) (hp : p < 10000) :
    IntOp.cmpi .slt (IntOp.addi (Scalar.muli (BitVec.ofNat 32 t) 10000#32) (BitVec.ofNat 32 p)) 100000#32 = 1#1 := by
  have h : (Scalar.muli (BitVec.ofNat 32 t) 10000#32 + BitVec.ofNat 32 p) = BitVec.ofNat 32 (t * 10000 + p) := by
    show BitVec.ofNat 32 t * 10000#32 + BitVec.ofNat 32 p = _
    apply BitVec.eq_of_toNat_eq
    simp only [BitVec.toNat_add, BitVec.toNat_mul, BitVec.toNat_ofNat]
    omega
  show BitVec.ofBool ((Scalar.muli (BitVec.ofNat 32 t) 10000#32 + BitVec.ofNat 32 p).slt 100000#32) = 1#1
  rw [h]
  have h2 : (BitVec.ofNat 32 (t * 10000 + p)).slt 100000#32 = true := by
    rw [BitVec.slt, decide_eq_true_eq, BitVec.toInt_eq_toNat_cond, BitVec.toInt_eq_toNat_cond]
    simp only [BitVec.toNat_ofNat]
    have : (t * 10000 + p) % 2 ^ 32 = t * 10000 + p := Nat.mod_eq_of_lt (by omega)
    rw [this]
    norm_num
    omega
  rw [h2]
  rfl

/-- Lane `l` (of 128) is lane 0 exactly when its word is the zero word. -/
theorem lane_word (l : Nat) (hl : l < 128) :
    IntOp.cmpi .eq (BitVec.ofNat 32 l) 0#32 = if l = 0 then 1#1 else 0#1 := by
  show BitVec.ofBool (BitVec.ofNat 32 l == 0#32) = _
  by_cases h : l = 0
  · subst h; rfl
  · rw [if_neg h]
    have : (BitVec.ofNat 32 l == 0#32) = false := by
      rw [beq_eq_false_iff_ne]
      intro e
      have := congrArg BitVec.toNat e
      simp only [BitVec.toNat_ofNat, BitVec.toNat_zero] at this
      omega
    rw [this]
    rfl

/-- A select whose condition is 1 at an index reads its first operand there. -/
theorem select_of_one {α : Type} {s : Shape} (c : IVec s 1) (a b : s.Idx → α) (j : s.Idx) (h : c j = 1#1) :
    select c a b j = a j := by
  show Scalar.select (c j) (a j) (b j) = a j
  rw [h]
  exact select_one _ _

/-! ## One block -/

/-- A block: 10000 rows of 128 entries. -/
abbrev Blk : Type := FVec Ideal S10000x128 .f32

/-- The dot product of row `p` of block `x` with row `p` of block `y`. -/
def blkDot (x y : Blk) (p : Fin 10000) : EReal := ∑ k : Fin 128, x (ix2 p k) * y (ix2 p k)

/-- Row `p`'s ratio within the block, the product of two lengths the square root of the product of the squared lengths. -/
def blkRatio (x0 x1 x2 : Blk) (p : Fin 10000) : EReal :=
  ratio (blkDot x0 x1 p) (blkDot x0 x2 p) (Ideal.sqrt (blkDot x0 x0 p * blkDot x1 x1 p))
    (Ideal.sqrt (blkDot x0 x0 p * blkDot x2 x2 p))

/-- A block's lane sums, row by row, kept as a column. -/
def colsum (v : FVec Ideal S10000x128 .f32) : FVec Ideal S10000x1 .f32 :=
  shapeCast S10000x1 (multiReduction (F := Ideal) .add [1] S10000 v 0x00000000#32 reduces_S10000x128_S10000 (.inl rfl) rfl)
    shapeCasts_S10000_S10000x1

/-- The column of lane sums of an entrywise product, at row `p`, is the dot product of the two rows. -/
theorem colsum_mulf (x y : Blk) (p : Fin 10000) (w : Fin 1) : colsum (mulf x y) (ix2 p w) = blkDot x y p := by
  unfold colsum
  refine (shapeCast_apply _ shapeCasts_S10000_S10000x1 (ix2 p w) (ix1 p) ?_).trans ?_
  · rw [Shape.rowMajor_val_one, Shape.rowMajor_val_two]
    show p.val = p.val * 1 + w.val
    omega
  · refine (Ideal.multiReduction_add_single (mulf x y) 0x00000000#32 reduces_S10000x128_S10000 (.inl rfl) rfl (ix1 p)).trans ?_
    exact Finset.sum_congr rfl fun k _ => congrArg (mulf x y)
      (funext fun a => Fin.ext (by match a with | ⟨0, _⟩ => rfl | ⟨1, _⟩ => rfl))

/-- No row of any of the 10 points is masked. -/
theorem mask_one (i : grid0.Coords) (p : Fin 10000) (w : Fin 1) :
    (cmpi .slt (addi (broadcast S10000x1 (Scalar.muli (BitVec.ofNat 32 (i 0).val) 10000#32))
      (iota .tc S10000x1 32 [0] iota_S10000x1_d0_w32)) (broadcast S10000x1 100000#32)) (ix2 p w) = 1#1 := by
  show IntOp.cmpi .slt (IntOp.addi (Scalar.muli (BitVec.ofNat 32 (i 0).val) 10000#32)
    (iota .tc S10000x1 32 [0] iota_S10000x1_d0_w32 (ix2 p w))) 100000#32 = 1#1
  rw [iota_single_apply]
  exact mask_word (i 0).val p.val (i 0).isLt p.isLt

/-- The value the body reduces holds, at (0, p, 0), row `p`'s ratio. -/
theorem pay2_apply (i : grid0.Coords) (x0 x1 x2 : Blk) (u : Fin 1) (p : Fin 10000) (w : Fin 1) :
    k0_pay2 (F := Ideal) i x0 x1 x2 (ix3 u p w) = blkRatio x0 x1 x2 p := by
  unfold k0_pay2
  dsimp only
  refine (shapeCast_ab_1ab_apply _ shapeCasts_S10000x1_S1x10000x1 u p w).trans ?_
  refine (select_of_one _ _ _ _ (mask_one i p w)).trans ?_
  show ratio (colsum (mulf x0 x1) (ix2 p w)) (colsum (mulf x0 x2) (ix2 p w))
      (Ideal.sqrt (colsum (mulf x0 x0) (ix2 p w) * colsum (mulf x1 x1) (ix2 p w)))
      (Ideal.sqrt (colsum (mulf x0 x0) (ix2 p w) * colsum (mulf x2 x2) (ix2 p w))) = _
  simp only [colsum_mulf]
  rfl

/-- The sum of all of that value is the sum of the block's rows' ratios. -/
theorem block_total (i : grid0.Coords) (x0 x1 x2 : Blk) :
    ∑ q : S1x10000x1.Idx, k0_pay2 (F := Ideal) i x0 x1 x2 q = ∑ p : Fin 10000, blkRatio x0 x1 x2 p := by
  refine (sum_idx3 (n0 := 1) (n1 := 10000) (n2 := 1) _).trans ?_
  rw [sum_fin_one]
  refine Finset.sum_congr rfl fun p _ => ?_
  rw [sum_fin_one]
  exact pay2_apply i x0 x1 x2 0 p 0

/-- The stored tile: the total of the reduced value in lane 0, zero in the other lanes. -/
theorem pay1_apply (v : FVec Ideal S1x10000x1 .f32) (a b : Fin 1) (l : Fin 128) :
    k0_pay1 (F := Ideal) v (ix3 a b l) = if l.val = 0 then ∑ q : S1x10000x1.Idx, v q else 0 := by
  unfold k0_pay1
  dsimp only
  show Scalar.select (IntOp.cmpi .eq (iota .tc S1x1x128 32 [2] iota_S1x1x128_d2_w32 (ix3 a b l)) 0#32)
      (extractAt ![0, 0, 0] (shapeCast S1x1x1 (multiReduction (F := Ideal) .add [1, 2] S1 v 0x00000000#32
        reduces_S1x10000x1_S1 (.inl rfl) rfl) shapeCasts_S1_S1x1x1) inpos_S1x1x1_p0_0_0)
      (Ideal.ofBits .f32 0x00000000#32) = _
  rw [iota_single_apply]
  show Scalar.select (IntOp.cmpi .eq (BitVec.ofNat 32 l.val) 0#32) _ _ = _
  rw [lane_word l.val l.isLt]
  by_cases h : l.val = 0
  · rw [if_pos h, if_pos h, select_one]
    show shapeCast S1x1x1 (multiReduction (F := Ideal) .add [1, 2] S1 v 0x00000000#32 reduces_S1x10000x1_S1 (.inl rfl) rfl)
      shapeCasts_S1_S1x1x1 (fun a => ⟨(![0, 0, 0] : Fin 3 → Nat) a, inpos_S1x1x1_p0_0_0 a⟩) = _
    refine (shapeCast_apply _ shapeCasts_S1_S1x1x1 _ (ix1 (0 : Fin 1)) ?_).trans ?_
    · rw [Shape.rowMajor_val_one, Shape.rowMajor_val_three]
      rfl
    · exact Ideal.multiReduction_add_total v 0x00000000#32 reduces_S1x10000x1_S1
        (fun b => by match b with | ⟨0, _⟩ => rfl) (.inl rfl) rfl _
  · rw [if_neg h, if_neg h, select_zero]
    exact Ideal.ofBits_zero_f32

/-- What a point stores, from its three input blocks: the sum of the block's rows' ratios in lane 0, zero elsewhere. -/
theorem stored_apply (i : grid0.Coords) (x0 x1 x2 : Blk) (a b : Fin 1) (l : Fin 128) :
    k0_pay1 (F := Ideal) (k0_pay2 (F := Ideal) i x0 x1 x2) (ix3 a b l)
      = if l.val = 0 then ∑ p : Fin 10000, blkRatio x0 x1 x2 p else 0 := by
  rw [pay1_apply, block_total]

end Cert.Contrast.Block

end
-- ==== Proof.KernelArray.lean ====
/-
  The kernel's output array after the run, as one function of the three argument arrays.

  The output is a [10, 1, 128] array of tiles, one per grid point. Point `t` reads block `t` of each argument array —
  rows 10000 * t … 10000 * t + 9999, all 128 columns (`iblk0_apply` …, from the index maps decided over the ten
  points, `idx_facts`) — and writes tile `t`: in lane 0 the sum of the ratios of those rows, zero in the other
  lanes. So every point writes back a block of ONE function of the array index (`tiles`, `stored_eq_tiles`,
  `flushed_eq`); the ten tiles cover the array (`mem_blk`, `cover`); hence the array ends holding `tiles` of the
  arguments (`out_array`).
-/
import proofs.«133239_j26371099197446_2_alg».proof.Proof.FrameKernelIdealPatched
import proofs.«133239_j26371099197446_2_alg».proof.Proof.BlockPayload
import Idealize.ShloMosaic.Lib.Pipeline.Value

set_option maxRecDepth 16384

noncomputable section

open scoped BigOperators

namespace Cert.Contrast.Kern

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Contrast Cert.Contrast.Block

/-! ## The whole-array function -/

/-- The sum of the ratios of the rows of block `n` (zero for a number that is no block's). -/
def blockSum (X P N : Arr) (n : Nat) : EReal :=
  if h : n < 10 then ∑ p : Fin 10000, rowRatio X P N (rowOf ⟨n, h⟩ p) else 0

/-- The output array: lane 0 of tile `t` holds block `t`'s sum, the other lanes zero. -/
def tiles (X P N : Arr) : S10x1x128.Idx → EReal := fun y => if (y 2).val = 0 then blockSum X P N (y 0).val else 0

/-- Rows of a block that are rows of the arrays have the arrays' dot products. -/
theorem blkDot_eq (x y : Blk) (A B : Arr) (t : Fin 10)
    (hx : ∀ (p : Fin 10000) (k : Fin 128), x (ix2 p k) = A (ix2 (rowOf t p) k))
    (hy : ∀ (p : Fin 10000) (k : Fin 128), y (ix2 p k) = B (ix2 (rowOf t p) k)) (p : Fin 10000) :
    blkDot x y p = rowDot A B (rowOf t p) :=
  Finset.sum_congr rfl fun k _ => by rw [hx p k, hy p k]

/-- What a point stores from blocks that are block `t` of the arrays, at a tile index, is `tiles` of the arrays at the
    array index over it. -/
theorem stored_eq_tiles (X P N : Arr) (x0 x1 x2 : Blk) (i : grid0.Coords) (t : Fin 10)
    (h0 : ∀ (p : Fin 10000) (k : Fin 128), x0 (ix2 p k) = X (ix2 (rowOf t p) k))
    (h1 : ∀ (p : Fin 10000) (k : Fin 128), x1 (ix2 p k) = P (ix2 (rowOf t p) k))
    (h2 : ∀ (p : Fin 10000) (k : Fin 128), x2 (ix2 p k) = N (ix2 (rowOf t p) k))
    (j : S1x1x128.Idx) (y : S10x1x128.Idx) (hy0 : (y 0).val = t.val) (hy2 : (y 2).val = (j 2).val) :
    k0_pay1 (F := Ideal) (k0_pay2 (F := Ideal) i x0 x1 x2) j = tiles X P N y := by
  obtain ⟨a, b, l, rfl⟩ : ∃ (a : Fin 1) (b : Fin 1) (l : Fin 128), j = ix3 a b l := ⟨j 0, j 1, j 2, eq_ix3 j⟩
  have hy2' : (y 2).val = l.val := hy2
  rw [stored_apply]
  unfold tiles blockSum
  rw [hy2', hy0, dif_pos t.isLt]
  refine if_congr Iff.rfl ?_ rfl
  refine Finset.sum_congr rfl fun p _ => ?_
  unfold blkRatio rowRatio
  rw [blkDot_eq x0 x1 X P t h0 h1 p, blkDot_eq x0 x2 X N t h0 h2 p, blkDot_eq x0 x0 X X t h0 h0 p,
    blkDot_eq x1 x1 P P t h1 h1 p, blkDot_eq x2 x2 N N t h2 h2 p]

/-! ## The windows' blocks, read off the arrays -/

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the ten points: each input window's block index is (t, 0), the output's
    (t, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a block number. -/
def blockOf (t : Fin cfg0.N) : Fin 10 := ⟨t.val, lt_of_lt_of_eq t.isLt N_0⟩

/-- Entry (p, k) of point `t`'s block of the first array is entry (10000 * t + p, k) of the array. -/
theorem iblk0_apply (c : Dev nD) (t : Fin cfg0.N) (p : Fin 10000) (k : Fin 128) :
    iblk m c 0 t (ix2 p k) = V m c main_arg0 (ix2 (rowOf (blockOf t) p) k) := by
  show V m c main_arg0 (((cfg0.win 0).blk t).view.emb (ix2 p k)) = _
  refine congrArg (V m c main_arg0) (funext fun a => Fin.ext ?_)
  obtain ⟨e0, e1, -⟩ := idx_facts t
  match a with
  | ⟨0, _⟩ => show win0_0.index t (0 : Fin 2) * 10000 + 1 * p.val = 10000 * t.val + p.val; omega
  | ⟨1, _⟩ => show win0_0.index t (1 : Fin 2) * 128 + 1 * k.val = k.val; omega

/-- The same of the second array. -/
theorem iblk1_apply (c : Dev nD) (t : Fin cfg0.N) (p : Fin 10000) (k : Fin 128) :
    iblk m c 1 t (ix2 p k) = V m c main_arg1 (ix2 (rowOf (blockOf t) p) k) := by
  show V m c main_arg1 (((cfg0.win 1).blk t).view.emb (ix2 p k)) = _
  refine congrArg (V m c main_arg1) (funext fun a => Fin.ext ?_)
  obtain ⟨-, -, e0, e1, -⟩ := idx_facts t
  match a with
  | ⟨0, _⟩ => show win0_1.index t (0 : Fin 2) * 10000 + 1 * p.val = 10000 * t.val + p.val; omega
  | ⟨1, _⟩ => show win0_1.index t (1 : Fin 2) * 128 + 1 * k.val = k.val; omega

/-- The same of the third array. -/
theorem iblk2_apply (c : Dev nD) (t : Fin cfg0.N) (p : Fin 10000) (k : Fin 128) :
    iblk m c 2 t (ix2 p k) = V m c main_arg2 (ix2 (rowOf (blockOf t) p) k) := by
  show V m c main_arg2 (((cfg0.win 2).blk t).view.emb (ix2 p k)) = _
  refine congrArg (V m c main_arg2) (funext fun a => Fin.ext ?_)
  obtain ⟨-, -, -, -, e0, e1, -⟩ := idx_facts t
  match a with
  | ⟨0, _⟩ => show win0_2.index t (0 : Fin 2) * 10000 + 1 * p.val = 10000 * t.val + p.val; omega
  | ⟨1, _⟩ => show win0_2.index t (1 : Fin 2) * 128 + 1 * k.val = k.val; omega

/-! ## From the tiles to the array -/

/-- WHAT POINT `t` WRITES BACK is tile `t` of `tiles` of the argument arrays as the region finds them. -/
theorem flushed_eq (c : Dev nD) (t : Fin cfg0.N) :
    (dats m 0 c).flushed 3 t = ((cfg0.win 3).blk t).view.read (Elt Ideal)
      (tiles (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S10000x128) hz2]
  funext j
  obtain ⟨-, -, -, -, -, -, e0, e1, e2⟩ := idx_facts t
  have hj0 : (j 0).val < 1 := (j 0).isLt
  exact stored_eq_tiles (V m c main_arg0) (V m c main_arg1) (V m c main_arg2) (iblk m c 0 t) (iblk m c 1 t) (iblk m c 2 t)
    (grid0.coords t) (blockOf t) (iblk0_apply m c t) (iblk1_apply m c t) (iblk2_apply m c t) j
    (((cfg0.win 3).blk t).view.emb j)
    (by show win0_3.index t (0 : Fin 3) * 1 + 1 * (j 0).val = t.val; omega)
    (by show win0_3.index t (2 : Fin 3) * 128 + 1 * (j 2).val = (j 2).val; omega)

/-- An index of the array is in point `t`'s tile iff each coordinate is in the tile's range on its axis. -/
theorem mem_blk (t : Fin cfg0.N) (i : S10x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0).slice (win0_3.rect t)).set ↔ _
  rw [View.set_slice_whole, Rect.mem_set_unit]
  exact Iff.rfl

/-- Every index of the array is in the tile of the point its first coordinate names. -/
theorem cover (i : S10x1x128.Idx) :
    ∃ t : Fin cfg0.N, (cfg0.win 3).flush t = true ∧ i ∈ ((cfg0.win 3).blk t).view.set := by
  have h0 : (i 0).val < 10 := (i 0).isLt
  have h1 : (i 1).val < 1 := (i 1).isLt
  have h2 : (i 2).val < 128 := (i 2).isLt
  have hN : (i 0).val < cfg0.N := lt_of_lt_of_eq h0 N_0.symm
  refine ⟨⟨(i 0).val, hN⟩, flush0_3 _, ?_⟩
  rw [mem_blk]
  obtain ⟨-, -, -, -, -, -, e0, e1, e2⟩ := idx_facts ⟨(i 0).val, hN⟩
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e0]; show (i 0).val * 1 ≤ (i 0).val ∧ (i 0).val < (i 0).val * 1 + 1; omega
  | ⟨1, _⟩ =>
    show win0_3.index ⟨(i 0).val, hN⟩ (1 : Fin 3) * 1 ≤ (i 1).val ∧ (i 1).val < win0_3.index ⟨(i 0).val, hN⟩ (1 : Fin 3) * 1 + 1
    rw [e1]; omega
  | ⟨2, _⟩ =>
    show win0_3.index ⟨(i 0).val, hN⟩ (2 : Fin 3) * 128 ≤ (i 2).val ∧ (i 2).val < win0_3.index ⟨(i 0).val, hN⟩ (2 : Fin 3) * 128 + 128
    rw [e2]; omega

/-- THE OUTPUT ARRAY after the run: `tiles` of the three argument arrays. -/
theorem out_array (c : Dev nD) :
    (dats m 0 c).arrAt 3 cfg0.N = tiles (m ((c : Thread nD τ).loc main_arg0)) (m ((c : Thread nD τ).loc main_arg1))
      (m ((c : Thread nD τ).loc main_arg2)) :=
  (dats m 0 c).arrAt_eq_of_cover 3 (tiles (V m c main_arg0) (V m c main_arg1) (V m c main_arg2))
    (fun t _ => flushed_eq m c t) cover

end Cert.Contrast.Kern

end
-- ==== Proof.KernelLoss.lean ====
/-
  The kernel's result is the loss.

  After the region the program sums the whole [10, 1, 128] output array, takes the logarithm and negates. The array
  holds each block's sum of ratios in lane 0 of its tile and zero elsewhere, so its total is the sum over the ten
  blocks of the sums over each block's 10000 rows (`tiles_total`), which is the sum over all 100000 rows: the tail
  applied to the array is the loss (`tail_tiles`). Read off the run: the result buffer bypasses the region and ends at
  the tail's operations applied to the memory with the output array in place (`tail_eq`), and the three argument
  arrays end as they began (`kernel_run`).
-/
import proofs.«133239_j26371099197446_2_alg».proof.Proof.KernelArray
import Idealize.ShloMosaic.Lib.StableHlo.Run
import Idealize.ShloMosaic.PureOps.Ideal.Laws

set_option maxRecDepth 16384

noncomputable section

open scoped BigOperators

namespace Cert.Contrast.Kern

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Contrast Cert.Contrast.Block

/-! ## The total of the output array -/

/-- The output array's total is the sum of all rows' ratios: only lane 0 of each tile is not zero, tile `t`'s lane 0
    is block `t`'s sum, and the blocks partition the rows. -/
theorem tiles_total (X P N : Arr) : ∑ y : S10x1x128.Idx, tiles X P N y = ∑ r : Fin 100000, rowRatio X P N r := by
  refine (sum_idx3 (n0 := 10) (n1 := 1) (n2 := 128) _).trans ?_
  rw [sum_rows_blocks]
  refine Finset.sum_congr rfl fun t _ => ?_
  rw [sum_fin_one, Finset.sum_eq_single (0 : Fin 128)]
  · show (if (0 : Nat) = 0 then blockSum X P N t.val else 0) = _
    rw [if_pos rfl]
    unfold blockSum
    rw [dif_pos t.isLt]
  · intro l _ hl
    show (if l.val = 0 then blockSum X P N t.val else 0) = 0
    rw [if_neg fun h : l.val = 0 => hl (Fin.ext h)]
  · intro h
    exact absurd (Finset.mem_univ _) h

/-- The operations after the region, applied to an output array: the total, its logarithm, negated. -/
def tail (O : S10x1x128.Idx → EReal) : S_.Idx → EReal :=
  Host.negf (F := Ideal) (Host.log (F := Ideal) (Host.reduceAdd (F := Ideal) O (constant (F := Ideal) S_ .f32 0x00000000#32)
    reducesTo_S10x1x128_S_d0_1_2 h_S_))

/-- Applied to the output array of the three arrays they give the loss. -/
theorem tail_tiles (X P N : Arr) : tail (tiles X P N) = fun _ => loss X P N := by
  funext i
  have e : (Host.reduceAdd (F := Ideal) (tiles X P N) (constant (F := Ideal) S_ .f32 0x00000000#32)
      reducesTo_S10x1x128_S_d0_1_2 h_S_) i = ∑ r : Fin 100000, rowRatio X P N r := by
    simp only [Host.reduceAdd, Ideal.hostReduceAdd_def]
    refine (Ideal.hostReduceAdd_total reducesTo_S10x1x128_S_d0_1_2 (fun b => b.elim0) (tiles X P N) _ i).trans ?_
    rw [tiles_total]
    show Ideal.ofBits .f32 0x00000000#32 + _ = _
    rw [Ideal.ofBits_zero_f32, zero_add]
  show -(Ideal.log ((Host.reduceAdd (F := Ideal) (tiles X P N) (constant (F := Ideal) S_ .f32 0x00000000#32)
      reducesTo_S10x1x128_S_d0_1_2 h_S_) i)) = _
  rw [e]
  rfl

/-! ## Read off the run -/

variable (m : (ℓ : Loc nD τ sig) → Buf (Elt Ideal) ℓ) (ρ : Dev nD → PrngReg)

/-- The result buffer is unscoped and no window's array: it bypasses the region. -/
theorem result_bypasses : main_v3 ∈ Pipeline.restRefs sig (cfgs 0).spec :=
  Pipeline.mem_restRefs_of main_v3 rfl (by decide)

/-- What the result buffer ends holding: the tail's operations on the memory with the output array in place. -/
theorem tail_eq (c : Dev nD) :
    Pipeline.afterTail₀ cfgs (dats m) 0 (V0 m) [hostOps1] c main_v3
      = fun _ => loss (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0)
      = tiles (m ((c.tc : Thread nD τ).loc main_arg0)) (m ((c.tc : Thread nD τ).loc main_arg1)) (m ((c.tc : Thread nD τ).loc main_arg2)) :=
    (Pipeline.withArrays_arr spec0 launch0.win.arr_inj c _ _ 3).trans (out_array m c)
  exact (congrArg tail e).trans (tail_tiles _ _ _)

/-- THE KERNEL'S RUN, read: every weakly fair execution terminates with the result at the loss of the three argument
    arrays, and the argument arrays unchanged. -/
theorem kernel_run : θ_run defs (onTc (τ := τ) (main (F := Ideal))) ⟨m, fun _ => 0, ρ⟩ (fun r => ∀ c : Dev nD,
      r.2.mem ((c.tc : Thread nD τ).loc main_v3)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v3 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Contrast.Kern

end
-- ==== Proof.lean ====
/-
  A row-wise contrastive ratio loss, computed by a tiled kernel and by a plain reference, is one function of its inputs.

  Three arrays X, P, N of 100000 rows and 128 columns. Row r has the dot products X·P and X·N and the squared
  lengths of its three rows; its ratio is  exp (X·P / (|X| |P|) / tau) / (exp (X·N / (|X| |N|) / tau) + eps),  and the
  loss is minus the logarithm of the sum of the ratios over all rows (Proof/RatioAlgebra.lean).

  The reference forms each product of two lengths as the product of two square roots, and sums the 100000 ratios at
  once (Proof/RefLoss.lean). The kernel runs on ten grid points; point t holds rows 10000 t … 10000 t + 9999 of each
  array, forms each product of lengths as the square root of the product of the squared lengths, masks no row, and
  writes the sum of its rows' ratios into lane 0 of a tile of 128 lanes, the rest zero (Proof/BlockPayload.lean); the
  tiles make a [10, 1, 128] array (Proof/KernelArray.lean) whose total, then logarithm, then negation the program takes
  after the region (Proof/KernelLoss.lean).

  Both are the loss: the sum over the tiles is the sum over the blocks of the sums over their rows, a regrouping of
  the one sum over all rows, which the extended reals allow freely; and sqrt (a b) = sqrt a sqrt b for the nonnegative
  REAL squared lengths — the one step that uses the precondition, under which every entry is a real number
  (Proof/FiniteEntries.lean). Every float literal (tau, eps, the zeros) is the same word in both programs and is never
  evaluated, except the zero a sum starts from.

  The three frames: the two kernels' frames are the frame certificates of Proof/FrameKernelPatched.lean and
  Proof/FrameKernelIdealPatched.lean; the reference's is its run with the result dropped. The idealization rewrote no
  operation, so there is nothing to preserve.
-/
import proofs.«133239_j26371099197446_2_alg».proof.Defs
import proofs.«133239_j26371099197446_2_alg».proof.Proof.Gen.Kernel
import proofs.«133239_j26371099197446_2_alg».proof.Proof.Gen.Kernel.Skeleton
import proofs.«133239_j26371099197446_2_alg».proof.Proof.Gen.Kernel.Launch
import proofs.«133239_j26371099197446_2_alg».proof.Proof.Gen.Kernel.Points
import proofs.«133239_j26371099197446_2_alg».proof.Proof.FrameKernelPatched
import proofs.«133239_j26371099197446_2_alg».proof.Proof.Gen.KernelIdeal
import proofs.«133239_j26371099197446_2_alg».proof.Proof.Gen.KernelIdeal.Skeleton
import proofs.«133239_j26371099197446_2_alg».proof.Proof.Gen.KernelIdeal.Launch
import proofs.«133239_j26371099197446_2_alg».proof.Proof.Gen.KernelIdeal.Points
import proofs.«133239_j26371099197446_2_alg».proof.Proof.FrameKernelIdealPatched
import proofs.«133239_j26371099197446_2_alg».proof.Proof.Gen.ReferenceIdeal
import proofs.«133239_j26371099197446_2_alg».proof.Proof.Gen.ReferenceIdeal.Run
import proofs.«133239_j26371099197446_2_alg».proof.Proof.Gen.ReferenceIdeal.Read
import proofs.«133239_j26371099197446_2_alg».proof.Proof.Gen.Pre_finite_inputs
import proofs.«133239_j26371099197446_2_alg».proof.Proof.RatioAlgebra
import proofs.«133239_j26371099197446_2_alg».proof.Proof.RefLoss
import proofs.«133239_j26371099197446_2_alg».proof.Proof.FiniteEntries
import proofs.«133239_j26371099197446_2_alg».proof.Proof.KernelLoss
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the three arrays and hold real numbers there, both programs end
    with the loss of the arrays in their result: the kernel by its run read back, the reference by its run, the
    agreement of the arguments, and the square-root law on real squared lengths. -/
theorem algebraic : Cert.algebraic_KernelIdeal_ReferenceIdeal := by
  intro m ρ m' ρ' hpre hagree
  refine ⟨fun c => fun _ => Cert.Contrast.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Contrast.Kern.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Contrast.Finite.isReal_of_pre _ _ _ (hpre c)
  rw [Cert.ReferenceIdeal.Read.val_main_v23_eq, (hagree c).1, (hagree c).2.1, (hagree c).2.2]
  exact Cert.Contrast.Ref.result_eq_loss _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
